-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S1x1 : Shape := ⟨2, ![1, 1]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  main_v18

def fn {F : FTy → Type} [FloatOps F] (main_arg0 : FVec F S4x4096x64 .f32) (main_arg1 : FVec F S4x4096x64 .f32) (main_arg2 : FVec F S1x1 .f32) (main_arg3 : FVec F S1x1 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S1x1 .f32 := Host.absf main_arg3
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_v13 main_v16
-- ==== Kernel.lean ====
abbrev S4x4096x64 : Shape := ⟨3, ![4, 4096, 64]⟩
abbrev S1x1 : Shape := ⟨2, ![1, 1]⟩
abbrev S4x4096x4096 : Shape := ⟨3, ![4, 4096, 4096]⟩
abbrev S1x1024x64 : Shape := ⟨3, ![1, 1024, 64]⟩
abbrev S1x1024x1024 : Shape := ⟨3, ![1, 1024, 1024]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S1x1, .f32⟩
  | .hbm, ⟨3, _⟩ => ⟨S1x1, .f32⟩
  | .hbm, ⟨4, _⟩ => ⟨S4x4096x4096, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1, .f32⟩
  | .local _ .vmem, ⟨5, _⟩ => ⟨S1x1, .f32⟩
  | .local _ .vmem, ⟨6, _⟩ => ⟨S1x1024x1024, .f32⟩
  | .local _ .vmem, ⟨7, _⟩ => ⟨S1x1024x1024, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x64_S1024 : S1024x64.Reduces [1] S1024
  shapeCasts_S1024_S1024x1 : S1024.ShapeCasts S1024x1
  shapeCasts_S1024_S1x1024 : S1024.ShapeCasts S1x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .f32 = 32 ∨ (Rect.block (s := S4x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x4096x64.size a
  hwx0_1 : ∀ i : grid0.Coords, EltTy.bits .f32 = 32 ∨ (Rect.block (s := S4x4096x64) S1x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x4096x4096.size a
  hwx0_4 : ∀ i : grid0.Coords, EltTy.bits .f32 = 32 ∨ (Rect.block (s := S4x4096x4096) S1x1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S1x1 : Shape := ⟨2, ![1, 1]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S1x1, .f32⟩
  | .hbm, ⟨3, _⟩ => ⟨S1x1, .f32⟩
  | .hbm, ⟨4, _⟩ => ⟨S4x4096x64, .f32⟩
  | .hbm, ⟨5, _⟩ => ⟨S_, .f32⟩
  | .hbm, ⟨6, _⟩ => ⟨S4x4096, .f32⟩
  | .hbm, ⟨7, _⟩ => ⟨S4x4096x64, .f32⟩
  | .hbm, ⟨8, _⟩ => ⟨S_, .f32⟩
  | .hbm, ⟨9, _⟩ => ⟨S4x4096, .f32⟩
  | .hbm, ⟨10, _⟩ => ⟨S4x4096x4096, .f32⟩
  | .hbm, ⟨11, _⟩ => ⟨S4x4096x1, .f32⟩
  | .hbm, ⟨12, _⟩ => ⟨S4x1x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  shapeCasts_S1x1_S_ : S1x1.ShapeCasts S_
  dot_S4x4096x64_S4x4096x64_S4x4096x4096_2_2_1_1_0_0_wf : DotDims.WF S4x4096x64 S4x4096x64 S4x4096x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf

class Facts : Prop extends Facts₀ where

variable [Facts]
-- ==== Proof.LibRowDot.lean ====
/-
  A matrix product whose right factor is contracted along its SECOND axis: `x · wᵀ` without a separate transposition.

  A matrix unit fed an `R × K` left factor and an `N × K` right factor, with dimension numbers that contract the
  second axis of both (`[1] × [1]`, nothing batched), accumulated into the zero matrix and read at exact arithmetic, is
  at the entry `(p, n)` the sum over the contracted coordinate `a : Fin K` of `l (p, a) * r (n, a)`; accumulated into any
  matrix `acc` it is `acc (p, n)` plus that sum. The four hypotheses say the dimension numbers are the ones described:
  each factor's index takes its row from the output index (the left factor from the output's row, the right factor
  from the output's column) and its column from the contraction index. Any extents, any float formats of the factors.
-/
import Idealize.ShloMosaic.PureOps.Ideal.Laws
import Idealize.ShloMosaic.Lib.ValueIdx

noncomputable section

open scoped BigOperators

namespace Cert.LibRowDot

open Idealize.ShloMosaic Idealize.ShloMosaic.ValueIdx

/-- `x · wᵀ` accumulated into `acc`, read at `(p, n)` in exact arithmetic: `acc (p, n) + ∑ a, l (p, a) * r (n, a)`. -/
theorem matmul_rows {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (acc : FVec Ideal ⟨2, ![R, N]⟩ .f32) (p : Fin R) (n : Fin N) :
    FloatOps.matmul D prec l r acc (ix2 p n) = acc (ix2 p n) + ∑ a : Fin K, l (ix2 p a) * r (ix2 n a) := by
  rw [Ideal.matmul_apply, ← Equiv.sum_comp (contrEquiv1 D K hr hs).symm]
  refine congrArg (acc (ix2 p n) + ·) (Finset.sum_congr rfl fun k _ => ?_)
  have hk := contrEquiv1_symm_val D K hr hs k
  have el : D.lhsIdx (ix2 p n) ((contrEquiv1 D K hr hs).symm k) = ix2 p k := funext fun a => Fin.ext (by
    match a with
    | ⟨0, _⟩ => exact hl0 _ _
    | ⟨1, _⟩ => exact (hl1 _ _).trans hk)
  have er : D.rhsIdx (ix2 p n) ((contrEquiv1 D K hr hs).symm k) = ix2 n k := funext fun a => Fin.ext (by
    match a with
    | ⟨0, _⟩ => exact hr0 _ _
    | ⟨1, _⟩ => exact (hr1 _ _).trans hk)
  rw [el, er]

/-- The same accumulated into the zero matrix: the sum alone. -/
theorem matmul_rows_zero {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (p : Fin R) (n : Fin N) :
    FloatOps.matmul D prec l r (constant ⟨2, ![R, N]⟩ .f32 0x00000000#32) (ix2 p n)
      = ∑ a : Fin K, l (ix2 p a) * r (ix2 n a) := by
  rw [matmul_rows D hr hs hl0 hl1 hr0 hr1 prec l r _ p n]
  show Ideal.ofBits .f32 0x00000000#32 + _ = _
  rw [Ideal.ofBits_zero_f32, zero_add]

end Cert.LibRowDot

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.BlockPieces.lean ====
/-
  The kernel body's three non-pointwise pieces on one `1024 × 64` pair of blocks, each read at an entry `(p, q)` of
  the `1024 × 1024` tile in exact arithmetic:

  * the squared norms of the first block's rows, summed along the lanes, stood up as a column and repeated along the
    tile's columns: at `(p, q)` the sum over `d` of `x (p, d) · x (p, d)`;
  * the squared norms of the second block's rows, laid as one row and repeated down the tile's rows: at `(p, q)` the
    sum over `d` of `y (q, d) · y (q, d)`;
  * the product of the first block with the transpose of the second, accumulated from zero: at `(p, q)` the sum over
    `d` of `x (p, d) · y (q, d)`.
-/
import proofs.«169453_j575525617907_1_alg».proof.Proof.Gen.KernelIdeal
import proofs.«169453_j575525617907_1_alg».proof.Proof.LibRowDot
import proofs.«169453_j575525617907_1_alg».proof.Proof.LibLayout
import proofs.«169453_j575525617907_1_alg».proof.Proof.LibVectorReads
import Idealize.ShloMosaic.Lib.ValueLayout

noncomputable section

open scoped BigOperators

namespace Cert.BlockPieces

open Cert.KernelIdeal Cert.KernelIdeal.Gen Idealize.ShloMosaic Idealize.ShloMosaic.ValueIdx

/-- Row `p`'s squared norm, as the tile's entry `(p, q)` of the column of lane sums repeated along the columns. -/
theorem rowNorm_col (x : FVec Ideal S1024x64 .f32) (p q : Fin 1024) :
    broadcastTo S1024x1024 (shapeCast S1024x1 (multiReduction .add [1] S1024 (mulf x x) 0x00000000#32
        reduces_S1024x64_S1024 (.inl rfl) rfl) shapeCasts_S1024_S1024x1) broadcasts_S1024x1_S1024x1024 (ix2 p q)
      = ∑ d : Fin 64, x (ix2 p d) * x (ix2 p d) := by
  refine (Cert.LibLayout.broadcastTo_a1_ab_apply _ broadcasts_S1024x1_S1024x1024 p q).trans ?_
  refine (Cert.LibLayout.shapeCast_a_a1_apply _ shapeCasts_S1024_S1024x1 p (0 : Fin 1)).trans ?_
  exact Cert.LibVectorReads.sum_last2_apply (mulf x x) reduces_S1024x64_S1024 (.inl rfl) rfl p

/-- Row `q`'s squared norm, as the tile's entry `(p, q)` of the row of lane sums repeated down the rows. -/
theorem rowNorm_row (y : FVec Ideal S1024x64 .f32) (p q : Fin 1024) :
    broadcastTo S1024x1024 (shapeCast S1x1024 (multiReduction .add [1] S1024 (mulf y y) 0x00000000#32
        reduces_S1024x64_S1024 (.inl rfl) rfl) shapeCasts_S1024_S1x1024) broadcasts_S1x1024_S1024x1024 (ix2 p q)
      = ∑ d : Fin 64, y (ix2 q d) * y (ix2 q d) := by
  refine (broadcastTo_1b_ab_apply _ broadcasts_S1x1024_S1024x1024 p q).trans ?_
  refine (shapeCast_a_1a_apply _ shapeCasts_S1024_S1x1024 (0 : Fin 1) q).trans ?_
  exact Cert.LibVectorReads.sum_last2_apply (mulf y y) reduces_S1024x64_S1024 (.inl rfl) rfl q

/-- The inner products of the first block's rows with the second block's rows: entry `(p, q)` of the matrix product
    accumulated from zero. -/
theorem cross (x y : FVec Ideal S1024x64 .f32) (p q : Fin 1024) :
    FloatOps.matmul dot_S1024x64_S1024x64_S1024x1024_1_1_0_0_n_n (some .fp32) x y
        (constant S1024x1024 .f32 0x00000000#32) (ix2 p q)
      = ∑ d : Fin 64, x (ix2 p d) * y (ix2 q d) :=
  Cert.LibRowDot.matmul_rows_zero dot_S1024x64_S1024x64_S1024x1024_1_1_0_0_n_n rfl rfl
    (fun i k => by
      unfold DotDims.lhsIdx
      rw [dif_neg (show ¬(0 : Fin S1024x64.rank) ∈ dot_S1024x64_S1024x64_S1024x1024_1_1_0_0_n_n.lhsBatch by decide),
        dif_pos (show (0 : Fin S1024x64.rank) ∈ dot_S1024x64_S1024x64_S1024x1024_1_1_0_0_n_n.lhsNonContracting by decide)]
      rfl)
    (fun i k => dot_S1024x64_S1024x64_S1024x1024_1_1_0_0_n_n.lhsIdx_val_of_single rfl i k)
    (fun i k => by
      unfold DotDims.rhsIdx
      rw [dif_neg (show ¬(0 : Fin S1024x64.rank) ∈ dot_S1024x64_S1024x64_S1024x1024_1_1_0_0_n_n.rhsBatch by decide),
        dif_pos (show (0 : Fin S1024x64.rank) ∈ dot_S1024x64_S1024x64_S1024x1024_1_1_0_0_n_n.rhsNonContracting by decide)]
      rfl)
    (fun i k => dot_S1024x64_S1024x64_S1024x1024_1_1_0_0_n_n.rhsIdx_val_of_single rfl i k)
    (some .fp32) x y p q

end Cert.BlockPieces

end
-- ==== Proof.Covariance.lean ====
/-
  The squared-exponential covariance of two batches of point clouds, entry by entry, in exact arithmetic on the
  extended reals.

  For a batch `b`, the `n`-th point `x` of the first cloud and the `m`-th point `y` of the second (each a row of
  `D` coordinates), a lengthscale `ℓ` and a prefactor `σ`, the entry is

      σ² · exp( (-½ · ((‖x‖² + ‖y‖²) − 2 · ⟨x, y⟩)) / ℓ² ),

  with `‖x‖² = ∑ d, x d · x d` and `⟨x, y⟩ = ∑ d, x d · y d`, the operations grouped exactly as written. The two float
  words `-½` and `2` are kept as the extended reals their words encode: both programs carry the same words, so they
  are never evaluated. Nothing here needs an input to be finite: the entry is one fixed expression, and the two
  programs are compared by showing each computes this expression, operation for operation.
-/
import Idealize.ShloMosaic.PureOps.Ideal
import Idealize.ShloMosaic.Lib.ValueIdx

noncomputable section

open scoped BigOperators

namespace Cert.Covariance

open Idealize.ShloMosaic Idealize.ShloMosaic.ValueIdx

/-- The float word of `-½` as an extended real. -/
abbrev negHalf : EReal := Ideal.ofBits .f32 0xBF000000#32
/-- The float word of `2` as an extended real. -/
abbrev two : EReal := Ideal.ofBits .f32 0x40000000#32

/-- One covariance entry from the two points' coordinate rows `x y`, the lengthscale `ℓ` and the prefactor `σ`. -/
def entry {D : ℕ} (x y : Fin D → EReal) (ℓ σ : EReal) : EReal :=
  (σ * σ) * Ideal.exp (Ideal.div (negHalf * (((∑ d, x d * x d) + ∑ d, y d * y d) - two * ∑ d, x d * y d)) (ℓ * ℓ))

/-- The entry depends only on the two rows and the two scalars. -/
theorem entry_congr {D : ℕ} {x x' y y' : Fin D → EReal} {ℓ ℓ' σ σ' : EReal} (hx : x = x') (hy : y = y') (hℓ : ℓ = ℓ')
    (hσ : σ = σ') : entry x y ℓ σ = entry x' y' ℓ' σ' := by
  subst hx hy hℓ hσ; rfl

/-- The entry for batch `b`, point `n` of the first cloud and point `m` of the second, of 4 batches of 4096 points with
    64 coordinates each; the lengthscale and the prefactor are the single entries of two `1 × 1` arrays. -/
def entryAt (X₁ X₂ : FVec Ideal ⟨3, ![4, 4096, 64]⟩ .f32) (ℓ σ : FVec Ideal ⟨2, ![1, 1]⟩ .f32)
    (b : Fin 4) (n m : Fin 4096) : EReal :=
  entry (fun d : Fin 64 => X₁ (ix3 b n d)) (fun d : Fin 64 => X₂ (ix3 b m d)) (ℓ (ix2 (0 : Fin 1) (0 : Fin 1)))
    (σ (ix2 (0 : Fin 1) (0 : Fin 1)))

/-- The whole covariance array `[4, 4096, 4096]`. -/
def cov (X₁ X₂ : FVec Ideal ⟨3, ![4, 4096, 64]⟩ .f32) (ℓ σ : FVec Ideal ⟨2, ![1, 1]⟩ .f32) :
    FVec Ideal ⟨3, ![4, 4096, 4096]⟩ .f32 :=
  fun i => entryAt X₁ X₂ ℓ σ ⟨(i 0).val, (i 0).isLt⟩ ⟨(i 1).val, (i 1).isLt⟩ ⟨(i 2).val, (i 2).isLt⟩

/-- The array at an index given by its coordinates. -/
theorem cov_ix3 (X₁ X₂ : FVec Ideal ⟨3, ![4, 4096, 64]⟩ .f32) (ℓ σ : FVec Ideal ⟨2, ![1, 1]⟩ .f32)
    (b : Fin 4) (n m : Fin 4096) : cov X₁ X₂ ℓ σ (ix3 b n m) = entryAt X₁ X₂ ℓ σ b n m := rfl

/-- A `1 × 1` array has one index. -/
theorem idx11_eq (k : (⟨2, ![1, 1]⟩ : Shape).Idx) : k = ix2 (0 : Fin 1) (0 : Fin 1) := by
  funext a
  apply Fin.ext
  match a with
  | ⟨0, _⟩ => have h : (k 0).val < 1 := (k 0).isLt; show (k 0).val = 0; omega
  | ⟨1, _⟩ => have h : (k 1).val < 1 := (k 1).isLt; show (k 1).val = 0; omega

end Cert.Covariance

end
-- ==== Proof.TileEntry.lean ====
/-
  What the kernel body stores at an entry of its `1024 × 1024` tile, in exact arithmetic.

  The body loads a `1 × 1024 × 64` block `x` of the first cloud, a `1 × 1024 × 64` block `y` of the second, the
  `1 × 1` lengthscale and prefactor, and stores one `1 × 1024 × 1024` tile. Read at the tile's entry `(u, p, q)` the
  stored value is the covariance entry of row `p` of `x` and row `q` of `y`: the leading unit axes only rename
  indices; the two squared norms and the inner product are the three sums of `BlockPieces`; every other operation
  acts entry by entry, in the order the covariance entry is written.
-/
import proofs.«169453_j575525617907_1_alg».proof.Proof.Gen.KernelIdeal.Skeleton
import proofs.«169453_j575525617907_1_alg».proof.Proof.BlockPieces
import proofs.«169453_j575525617907_1_alg».proof.Proof.Covariance

noncomputable section

open scoped BigOperators

namespace Cert.TileEntry

open Cert.KernelIdeal Cert.KernelIdeal.Gen Idealize.ShloMosaic Idealize.ShloMosaic.ValueIdx

/-- An exponential at an index is the exponential of the element. -/
theorem exp_apply {s : Shape} {φ : FTy} (x : FVec Ideal s φ) (i : s.Idx) : exp x i = Ideal.exp (x i) := rfl

/-- The single entry of a `1 × 1` block, extracted at position `(0, 0)`. -/
theorem extract11 (x : Vec Ideal S1x1 .f32) : extractAt ![0, 0] x inpos_S1x1_p0_0 = x (ix2 (0 : Fin 1) (0 : Fin 1)) :=
  congrArg x (Cert.Covariance.idx11_eq _)

/-- Row `p` of a `1 × 1024 × 64` block with its leading unit axis dropped, against row `q` of another. -/
theorem rows_dropUnit (x y : Vec Ideal S1x1024x64 .f32) (p q : Fin 1024) :
    (∑ d : Fin 64, shapeCast S1024x64 x shapeCasts_S1x1024x64_S1024x64 (ix2 p d)
        * shapeCast S1024x64 y shapeCasts_S1x1024x64_S1024x64 (ix2 q d))
      = ∑ d : Fin 64, x (ix3 (0 : Fin 1) p d) * y (ix3 (0 : Fin 1) q d) :=
  Finset.sum_congr rfl fun d _ => by
    rw [shapeCast_1ab_ab_apply x shapeCasts_S1x1024x64_S1024x64 p d,
      shapeCast_1ab_ab_apply y shapeCasts_S1x1024x64_S1024x64 q d]

/-- THE STORED TILE AT AN ENTRY: the covariance entry of row `p` of the first block and row `q` of the second. -/
theorem payload_entry (x0 x1 : Vec Ideal S1x1024x64 .f32) (x2 x3 : Vec Ideal S1x1 .f32) (u : Fin 1) (p q : Fin 1024) :
    k0_pay1 (F := Ideal) x0 x1 x2 x3 (ix3 u p q)
      = Cert.Covariance.entry (fun d : Fin 64 => x0 (ix3 (0 : Fin 1) p d)) (fun d : Fin 64 => x1 (ix3 (0 : Fin 1) q d))
          (x2 (ix2 (0 : Fin 1) (0 : Fin 1))) (x3 (ix2 (0 : Fin 1) (0 : Fin 1))) := by
  unfold k0_pay1 Cert.Covariance.entry
  refine (shapeCast_ab_1ab_apply _ shapeCasts_S1024x1024_S1x1024x1024 u p q).trans ?_
  simp only [mulf_apply, subf_apply, addf_apply, divf_apply, broadcast_apply, exp_apply, Ideal.scalar_mulf_def,
    Ideal.ofBits_def]
  refine congrArg₂ (· * ·) ?_ (congrArg Ideal.exp (congrArg₂ Ideal.div (congrArg (Cert.Covariance.negHalf * ·)
    (congrArg₂ (· - ·) (congrArg₂ (· + ·) ?_ ?_) (congrArg (Cert.Covariance.two * ·) ?_))) ?_))
  · rw [extract11]
  · exact (Cert.BlockPieces.rowNorm_col _ p q).trans (rows_dropUnit x0 x0 p p)
  · exact (Cert.BlockPieces.rowNorm_row _ p q).trans (rows_dropUnit x1 x1 q q)
  · exact (Cert.BlockPieces.cross _ _ p q).trans (rows_dropUnit x0 x1 p q)
  · rw [extract11]

end Cert.TileEntry

end
-- ==== Proof.KernelCov.lean ====
/-
  The kernel's result array is the covariance array.

  The grid has `4 × 4 × 4` points `(b, i, j)`. At a point the body sees rows `1024 i … 1024 i + 1023` of batch `b` of
  the first cloud, rows `1024 j … 1024 j + 1023` of batch `b` of the second, and the two `1 × 1` scalars, and writes
  back the tile of the result at batch `b`, rows `1024 i …`, columns `1024 j …`. Entry `(u, p, q)` of that tile is the
  covariance entry of row `p` of the first block and row `q` of the second (`TileEntry`), which are rows
  `1024 i + p` and `1024 j + q` of the clouds: exactly the covariance array's entry at the tile's position. The 64
  tiles cover the array (entry `(b, n, k)` lies in the tile of the point `(b, n / 1024, k / 1024)`), so the array
  ends holding the covariance array everywhere.
-/
import proofs.«169453_j575525617907_1_alg».proof.Proof.Gen.KernelIdeal.Value
import proofs.«169453_j575525617907_1_alg».proof.Proof.TileEntry
import proofs.«169453_j575525617907_1_alg».proof.Proof.Covariance

noncomputable section

namespace Cert.KernelIdeal.CovValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- Where the blocks sit at a grid point, decided over the 64 points: the first cloud's block shares the tile's batch
    and row-block, the second cloud's block shares the tile's batch and sits at the tile's column-block, both start at
    coordinate 0 of the last axis; the tile's block indices stay below 4. -/
theorem block_positions : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = win0_4.index t (2 : Fin 3)
    ∧ win0_1.index t (2 : Fin 3) = 0
    ∧ win0_4.index t (0 : Fin 3) ≤ 3 ∧ win0_4.index t (1 : Fin 3) ≤ 3 ∧ win0_4.index t (2 : Fin 3) ≤ 3 :=
  (by decide +kernel : ∀ t : Fin grid0.N, _)

/-- Every tile position is some grid point's. -/
theorem every_tile : ∀ (q0 q1 q2 : Fin 4), ∃ t : Fin cfg0.N, win0_4.index t = ![q0.val, q1.val, q2.val] :=
  (by decide +kernel : ∀ (q0 q1 q2 : Fin 4), ∃ t : Fin grid0.N, win0_4.index t = ![q0.val, q1.val, q2.val])

/-- WHAT POINT `t` WRITES BACK is tile `t` of the covariance array of the arguments. -/
theorem flushed_cov (c : Dev nD) (t : Fin cfg0.N) :
    (dats m 0 c).flushed 4 t = ((cfg0.win 4).blk t).view.read (Elt Ideal)
      (Cert.Covariance.cov (V m c main_arg0) (V m c main_arg1) (V m c main_arg2) (V m c main_arg3)) := by
  show (cfg0.win 4).cut (grid0.coords t) ((dats m 0 c).after 4 t) = _
  rw [after0_4]
  unfold out0_4
  rw [View.canon_unit_zero zeros3]
  simp only [View.ld_unit_zero (S := S1x1024x64) zeros3, View.ld_unit_zero (S := S1x1) zeros2]
  obtain ⟨a0, a1, a2, b0, b1, b2, l0, l1, l2⟩ := block_positions t
  funext j
  obtain ⟨u, p, q, rfl⟩ : ∃ (u : Fin 1) (p q : Fin 1024), j = ix3 u p q := ⟨j 0, j 1, j 2, eq_ix3 j⟩
  have hu : u.val < 1 := u.isLt
  have hp : p.val < 1024 := p.isLt
  have hq : q.val < 1024 := q.isLt
  show k0_pay1 (F := Ideal) (iblk m c 0 t) (iblk m c 1 t) (iblk m c 2 t) (iblk m c 3 t) (ix3 u p q)
    = Cert.Covariance.cov (V m c main_arg0) (V m c main_arg1) (V m c main_arg2) (V m c main_arg3)
        (((cfg0.win 4).blk t).view.emb (ix3 u p q))
  refine (Cert.TileEntry.payload_entry (iblk m c 0 t) (iblk m c 1 t) (iblk m c 2 t) (iblk m c 3 t) u p q).trans ?_
  -- the tile's entry `(u, p, q)` sits in the array at batch `b`, row `1024 i + p`, column `1024 j + q`
  have he : ((cfg0.win 4).blk t).view.emb (ix3 u p q)
      = ix3 (⟨win0_4.index t (0 : Fin 3) * 1 + 1 * u.val, by omega⟩ : Fin 4)
          (⟨win0_4.index t (1 : Fin 3) * 1024 + 1 * p.val, by omega⟩ : Fin 4096)
          (⟨win0_4.index t (2 : Fin 3) * 1024 + 1 * q.val, by omega⟩ : Fin 4096) := by
    funext a; apply Fin.ext
    match a with
    | ⟨0, _⟩ => rfl
    | ⟨1, _⟩ => rfl
    | ⟨2, _⟩ => rfl
  refine Eq.trans ?_ (congrArg
    (Cert.Covariance.cov (V m c main_arg0) (V m c main_arg1) (V m c main_arg2) (V m c main_arg3)) he.symm)
  refine Eq.trans ?_ (Cert.Covariance.cov_ix3 _ _ _ _ _ _ _).symm
  unfold Cert.Covariance.entryAt
  refine Cert.Covariance.entry_congr (funext fun d => ?_) (funext fun d => ?_) ?_ ?_
  · -- row `p` of the first cloud's block is row `1024 i + p` of batch `b`
    show V m c main_arg0 (((cfg0.win 0).blk t).view.emb (ix3 (0 : Fin 1) p d)) = V m c main_arg0 (ix3 _ _ d)
    refine congrArg (V m c main_arg0) ?_
    funext a; apply Fin.ext
    match a with
    | ⟨0, _⟩ => show win0_0.index t (0 : Fin 3) * 1 + 1 * 0 = win0_4.index t (0 : Fin 3) * 1 + 1 * u.val; omega
    | ⟨1, _⟩ => show win0_0.index t (1 : Fin 3) * 1024 + 1 * p.val = win0_4.index t (1 : Fin 3) * 1024 + 1 * p.val; omega
    | ⟨2, _⟩ => show win0_0.index t (2 : Fin 3) * 64 + 1 * d.val = d.val; omega
  · -- row `q` of the second cloud's block is row `1024 j + q` of batch `b`
    show V m c main_arg1 (((cfg0.win 1).blk t).view.emb (ix3 (0 : Fin 1) q d)) = V m c main_arg1 (ix3 _ _ d)
    refine congrArg (V m c main_arg1) ?_
    funext a; apply Fin.ext
    match a with
    | ⟨0, _⟩ => show win0_1.index t (0 : Fin 3) * 1 + 1 * 0 = win0_4.index t (0 : Fin 3) * 1 + 1 * u.val; omega
    | ⟨1, _⟩ => show win0_1.index t (1 : Fin 3) * 1024 + 1 * q.val = win0_4.index t (2 : Fin 3) * 1024 + 1 * q.val; omega
    | ⟨2, _⟩ => show win0_1.index t (2 : Fin 3) * 64 + 1 * d.val = d.val; omega
  · -- a `1 × 1` array has one entry
    show V m c main_arg2 (((cfg0.win 2).blk t).view.emb (ix2 (0 : Fin 1) (0 : Fin 1))) = V m c main_arg2 (ix2 (0 : Fin 1) (0 : Fin 1))
    exact congrArg (V m c main_arg2) (Cert.Covariance.idx11_eq _)
  · show V m c main_arg3 (((cfg0.win 3).blk t).view.emb (ix2 (0 : Fin 1) (0 : Fin 1))) = V m c main_arg3 (ix2 (0 : Fin 1) (0 : Fin 1))
    exact congrArg (V m c main_arg3) (Cert.Covariance.idx11_eq _)

/-- An index of the array is in point `t`'s tile iff each coordinate is in the tile's range on its axis. -/
theorem mem_tile (t : Fin cfg0.N) (i : S4x4096x4096.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v0).slice (win0_4.rect t)).set ↔ _
  rw [View.set_slice_whole, Rect.mem_set_unit]
  exact Iff.rfl

/-- THE TILES COVER THE ARRAY: entry `(b, n, k)` is in the tile of the point `(b, n / 1024, k / 1024)`. -/
theorem covered (i : S4x4096x4096.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := every_tile ⟨(i 0).val, hi0⟩ ⟨(i 1).val / 1024, by omega⟩ ⟨(i 2).val / 1024, by omega⟩
  have q0 : win0_4.index t (0 : Fin 3) = (i 0).val := congrFun ht 0
  have q1 : win0_4.index t (1 : Fin 3) = (i 1).val / 1024 := congrFun ht 1
  have q2 : win0_4.index t (2 : Fin 3) = (i 2).val / 1024 := congrFun ht 2
  refine ⟨t, flush0_4 t, ?_⟩
  rw [mem_tile]
  intro a
  match a with
  | ⟨0, _⟩ =>
    show win0_4.index t (0 : Fin 3) * 1 ≤ (i 0).val ∧ (i 0).val < win0_4.index t (0 : Fin 3) * 1 + 1; omega
  | ⟨1, _⟩ =>
    show win0_4.index t (1 : Fin 3) * 1024 ≤ (i 1).val ∧ (i 1).val < win0_4.index t (1 : Fin 3) * 1024 + 1024; omega
  | ⟨2, _⟩ =>
    show win0_4.index t (2 : Fin 3) * 1024 ≤ (i 2).val ∧ (i 2).val < win0_4.index t (2 : Fin 3) * 1024 + 1024; omega

/-- THE ARRAY after the run is the covariance array of the arguments as launched. -/
theorem final_cov (c : Dev nD) : (dats m 0 c).arrAt 4 cfg0.N
    = Cert.Covariance.cov (m ((c : Thread nD τ).loc main_arg0)) (m ((c : Thread nD τ).loc main_arg1))
        (m ((c : Thread nD τ).loc main_arg2)) (m ((c : Thread nD τ).loc main_arg3)) :=
  (dats m 0 c).arrAt_eq_of_cover 4
    (Cert.Covariance.cov (V m c main_arg0) (V m c main_arg1) (V m c main_arg2) (V m c main_arg3))
    (fun t _ => flushed_cov m c t) covered

/-- THE RUN: every weakly fair execution of the kernel's program terminates with the result array at the covariance
    array of the arguments, and the arguments unchanged. -/
theorem run : θ_run defs (onTc (τ := τ) (main (F := Ideal))) ⟨m, fun _ => 0, ρ⟩ fun r => ∀ c : Dev nD,
      r.2.mem ((c : Thread nD τ).loc main_v0)
        = Cert.Covariance.cov (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_cov m c), (h c).2⟩) (Cert.KernelIdeal.Value.run_blocks m ρ)

end Cert.KernelIdeal.CovValue

end
-- ==== Proof.ReferenceCov.lean ====
/-
  The reference program's result is the covariance array.

  Read at the index `(b, n, k)`, the reference's last stage is, operation by operation: the prefactor squared, times
  the exponential of the quotient of `-½ · ((‖x‖² + ‖y‖²) − 2 · ⟨x, y⟩)` by the lengthscale squared, where `x` is
  point `n` of batch `b` of the first cloud and `y` point `k` of batch `b` of the second. The two squared norms are
  sums over the last axis started from the zero word (adding zero changes no extended real), carried to `(b, n, k)`
  through two broadcasts each that only copy; the inner product is the batched contraction over the last axis; the
  two scalars are the single entries of the `1 × 1` arguments.
-/
import proofs.«169453_j575525617907_1_alg».proof.Proof.Gen.ReferenceIdeal.Read
import proofs.«169453_j575525617907_1_alg».proof.Proof.Covariance

noncomputable section

open scoped BigOperators

namespace Cert.ReferenceCov

open Cert.ReferenceIdeal Cert.ReferenceIdeal.Gen Cert.ReferenceIdeal.Read Idealize.ShloMosaic Idealize.ShloMosaic.ValueIdx

/-- The lengthscale reshaped to a scalar is the single entry of its `1 × 1` array. -/
theorem scalar13 (x : (⟨S1x1, .f32⟩ : BufTy).Contents (Elt Ideal)) (j : S_.Idx) :
    val_main_v13 (F := Ideal) x j = x (ix2 (0 : Fin 1) (0 : Fin 1)) := by
  unfold val_main_v13 shapeCast
  exact congrArg x (Cert.Covariance.idx11_eq _)

/-- The prefactor reshaped to a scalar is the single entry of its `1 × 1` array. -/
theorem scalar15 (x : (⟨S1x1, .f32⟩ : BufTy).Contents (Elt Ideal)) (j : S_.Idx) :
    val_main_v15 (F := Ideal) x j = x (ix2 (0 : Fin 1) (0 : Fin 1)) := by
  unfold val_main_v15 shapeCast
  exact congrArg x (Cert.Covariance.idx11_eq _)

/-- The first squared norm's summand sits at `(b, n, d)`: the two broadcasts carry `(b, n, k)` back to `(b, n)`. -/
theorem idx_norm1 (b : Fin 4) (n k : Fin 4096) (d : Fin 64) :
    idx_main_v1 (idx_main_v5 (idx_main_v7 (ix3 b n k))) d = ix3 b n d :=
  funext fun a => Fin.ext (by match a with | ⟨0, _⟩ => rfl | ⟨1, _⟩ => rfl | ⟨2, _⟩ => rfl)

/-- The second squared norm's summand sits at `(b, k, d)`: the two broadcasts carry `(b, n, k)` back to `(b, k)`. -/
theorem idx_norm2 (b : Fin 4) (n k : Fin 4096) (d : Fin 64) :
    idx_main_v3 (idx_main_v6 (idx_main_v8 (ix3 b n k))) d = ix3 b k d :=
  funext fun a => Fin.ext (by match a with | ⟨0, _⟩ => rfl | ⟨1, _⟩ => rfl | ⟨2, _⟩ => rfl)

/-- The inner product's left factor sits at `(b, n, d)` … -/
theorem idx_left (b : Fin 4) (n k : Fin 4096) (d : Fin 64) : lidx_main_v4 (ix3 b n k) d = ix3 b n d :=
  funext fun a => Fin.ext (by match a with | ⟨0, _⟩ => rfl | ⟨1, _⟩ => rfl | ⟨2, _⟩ => rfl)

/-- … and its right factor at `(b, k, d)`. -/
theorem idx_right (b : Fin 4) (n k : Fin 4096) (d : Fin 64) : ridx_main_v4 (ix3 b n k) d = ix3 b k d :=
  funext fun a => Fin.ext (by match a with | ⟨0, _⟩ => rfl | ⟨1, _⟩ => rfl | ⟨2, _⟩ => rfl)

/-- THE REFERENCE IS THE COVARIANCE ARRAY. -/
theorem ref_is_cov (x0 x1 : (⟨S4x4096x64, .f32⟩ : BufTy).Contents (Elt Ideal))
    (x2 x3 : (⟨S1x1, .f32⟩ : BufTy).Contents (Elt Ideal)) :
    val_main_v23 (F := Ideal) x0 x1 x2 x3 = Cert.Covariance.cov x0 x1 x2 x3 := by
  funext i
  obtain ⟨b, n, k, rfl⟩ : ∃ (b : Fin 4) (n k : Fin 4096), i = ix3 b n k := ⟨i 0, i 1, i 2, eq_ix3 i⟩
  rw [Cert.Covariance.cov_ix3]
  unfold Cert.Covariance.entryAt Cert.Covariance.entry
  rw [val_main_v23_apply, val_main_v22_apply, val_main_v16_apply, val_main_v21_apply, val_main_v20_apply,
    val_main_v19_apply, val_main_v14_apply, val_main_v18_apply, val_main_v17_apply, val_main_cst_2_apply,
    val_main_v12_apply, val_main_v9_apply, val_main_v7_apply, val_main_v5_apply, val_main_v1_apply,
    val_main_v8_apply, val_main_v6_apply, val_main_v3_apply, val_main_v11_apply, val_main_v10_apply,
    val_main_cst_1_apply, val_main_v4_apply, val_main_cst_apply, val_main_cst_0_apply]
  simp only [val_main_v0_apply, val_main_v2_apply, Ideal.mulf_def, Ideal.subf_def, Ideal.addf_def, Ideal.hostDivf_def,
    Ideal.hostUnary_exp_def, Ideal.ofBits_def, Ideal.ofBits_zero_f32, zero_add, scalar13, scalar15, idx_norm1, idx_norm2,
    idx_left, idx_right]

end Cert.ReferenceCov

end
-- ==== Proof.lean ====
/- A squared-exponential covariance kernel against its array-language reference, in exact arithmetic on the
   extended reals.

   Both programs take two batches of point clouds `X₁ X₂ : [4, 4096, 64]`, a lengthscale and a prefactor (each a
   `1 × 1` array) and return the `[4, 4096, 4096]` array whose entry `(b, n, k)` is

       σ² · exp( (-½ · ((‖x‖² + ‖y‖²) − 2 · ⟨x, y⟩)) / ℓ² ),      x = X₁[b, n, ·],  y = X₂[b, k, ·]

   (Proof/Covariance.lean). The reference computes it over whole arrays: two sums over the last axis, one batched
   contraction, broadcasts, and entrywise operations (Proof/ReferenceCov.lean). The kernel computes it tile by tile over
   a `4 × 4 × 4` grid: at a point it holds 1024 rows of each cloud, takes the two lane sums and one matrix product
   with the second block transposed, and applies the same entrywise operations in the same order
   (Proof/BlockPieces.lean, Proof/TileEntry.lean); the 64 tiles cover the result (Proof/KernelCov.lean). Operation for
   operation the two sides are the same expression of the same inputs — the same float words for `-½` and `2`, the
   same grouping, a sum started from zero against a bare sum — so no algebraic law joins them and no input needs to be
   finite: the precondition is never opened.

   The three frame claims are the generated frame runs; the idealized kernel is the kernel's own text read in exact
   arithmetic (no operation was rewritten), so that claim is `True`. -/
import proofs.«169453_j575525617907_1_alg».proof.Defs
import proofs.«169453_j575525617907_1_alg».proof.Proof.Gen.Kernel
import proofs.«169453_j575525617907_1_alg».proof.Proof.Gen.Kernel.Skeleton
import proofs.«169453_j575525617907_1_alg».proof.Proof.Gen.Kernel.Launch
import proofs.«169453_j575525617907_1_alg».proof.Proof.Gen.Kernel.Points
import proofs.«169453_j575525617907_1_alg».proof.Proof.Gen.Kernel.Frame
import proofs.«169453_j575525617907_1_alg».proof.Proof.Gen.KernelIdeal
import proofs.«169453_j575525617907_1_alg».proof.Proof.Gen.KernelIdeal.Skeleton
import proofs.«169453_j575525617907_1_alg».proof.Proof.Gen.KernelIdeal.Launch
import proofs.«169453_j575525617907_1_alg».proof.Proof.Gen.KernelIdeal.Points
import proofs.«169453_j575525617907_1_alg».proof.Proof.Gen.KernelIdeal.Frame
import proofs.«169453_j575525617907_1_alg».proof.Proof.Gen.ReferenceIdeal
import proofs.«169453_j575525617907_1_alg».proof.Proof.Gen.Pre_finite_inputs
import proofs.«169453_j575525617907_1_alg».proof.Proof.Gen.KernelIdeal.Value
import proofs.«169453_j575525617907_1_alg».proof.Proof.Gen.ReferenceIdeal.Run
import proofs.«169453_j575525617907_1_alg».proof.Proof.Gen.ReferenceIdeal.Read
import proofs.«169453_j575525617907_1_alg».proof.Proof.KernelCov
import proofs.«169453_j575525617907_1_alg».proof.Proof.ReferenceCov
import Idealize.ShloMosaic.Adequacy
import Idealize.ShloMosaic.Init

noncomputable section

namespace Cert.Proof

open Idealize.ShloMosaic Idealize.ShloMosaic.TcCoe Idealize.SL.Sem

/-- The kernel's program runs and leaves its arguments unchanged. -/
theorem frame_kernel : Cert.frame_Kernel := fun m ρ _ => Cert.Kernel.Gen.frame m ρ

/-- The same program read in exact arithmetic runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- In exact arithmetic the kernel's result array ends at the covariance array of its arguments (the tiles cover it)
    and the reference's result is the covariance array of its arguments; the arguments agree. -/
theorem algebraic : Cert.algebraic_KernelIdeal_ReferenceIdeal := by
  intro m ρ m' ρ' _ hagree
  refine ⟨_, Cert.KernelIdeal.CovValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v23_eq _ _ _ _).trans (Cert.ReferenceCov.ref_is_cov _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
